-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x100x30000 : Shape := ⟨3, ![32, 100, 30000]⟩
abbrev S1000x30000 : Shape := ⟨2, ![1000, 30000]⟩
abbrev S1000 : Shape := ⟨1, ![1000]⟩
abbrev S104x10000 : Shape := ⟨2, ![104, 10000]⟩
abbrev S104 : Shape := ⟨1, ![104]⟩
abbrev S_ : Shape := ⟨0, ![]⟩

class Facts : Prop where
  bcast_S_S32x100x30000 : S_.BroadcastsInDim S32x100x30000 (![] : Fin 0 → Fin S32x100x30000.rank)
  reducesTo_S32x100x30000_S_d0_1_2 : S32x100x30000.ReducesTo [0, 1, 2] S_
  h_S_ : 0 < S_.numel
  bcast_S_S1000x30000 : S_.BroadcastsInDim S1000x30000 (![] : Fin 0 → Fin S1000x30000.rank)
  reducesTo_S1000x30000_S_d0_1 : S1000x30000.ReducesTo [0, 1] S_
  bcast_S_S1000 : S_.BroadcastsInDim S1000 (![] : Fin 0 → Fin S1000.rank)
  reducesTo_S1000_S_d0 : S1000.ReducesTo [0] S_
  bcast_S_S104x10000 : S_.BroadcastsInDim S104x10000 (![] : Fin 0 → Fin S104x10000.rank)
  reducesTo_S104x10000_S_d0_1 : S104x10000.ReducesTo [0, 1] S_
  bcast_S_S104 : S_.BroadcastsInDim S104 (![] : Fin 0 → Fin S104.rank)
  reducesTo_S104_S_d0 : S104.ReducesTo [0] S_

variable [Facts]

def fn_part1 {F : FTy → Type} [FloatOps F] (main_arg4 : FVec F S104 .f32) (main_v13 : IVec S_ 1) (main_v16 : IVec S104x10000 1) : IVec S_ 1 :=
  let main_c_5 : IVec S_ 1 := constantI S_ 1 1#1
  let main_v17 : IVec S_ 1 := (fun x v => Host.reduce IntOp.andi x v reducesTo_S104x10000_S_d0_1 h_S_) main_v16 main_c_5
  let main_v18 : IVec S_ 1 := andi main_v13 main_v17
  let main_v19 : FVec F S104 .f32 := Host.absf main_arg4
  let main_cst_6 : FVec F S_ .f32 := constant S_ .f32 0x7F800000#32
  let main_v20 : FVec F S104 .f32 := broadcastInDim S104 ![] bcast_S_S104 main_cst_6
  let main_v21 : IVec S104 1 := cmpf .olt main_v19 main_v20
  let main_c_7 : IVec S_ 1 := constantI S_ 1 1#1
  let main_v22 : IVec S_ 1 := (fun x v => Host.reduce IntOp.andi x v reducesTo_S104_S_d0 h_S_) main_v21 main_c_7
  let main_v23 : IVec S_ 1 := andi main_v18 main_v22
  main_v23

def fn {F : FTy → Type} [FloatOps F] (main_arg0 : FVec F S32x100x30000 .f32) (main_arg1 : FVec F S1000x30000 .f32) (main_arg2 : FVec F S1000 .f32) (main_arg3 : FVec F S104x10000 .f32) (main_arg4 : FVec F S104 .f32) : IVec S_ 1 :=
  let main_v0 : FVec F S32x100x30000 .f32 := Host.absf main_arg0
  let main_cst : FVec F S_ .f32 := constant S_ .f32 0x7F800000#32
  let main_v1 : FVec F S32x100x30000 .f32 := broadcastInDim S32x100x30000 ![] bcast_S_S32x100x30000 main_cst
  let main_v2 : IVec S32x100x30000 1 := cmpf .olt main_v0 main_v1
  let main_c : IVec S_ 1 := constantI S_ 1 1#1
  let main_v3 : IVec S_ 1 := (fun x v => Host.reduce IntOp.andi x v reducesTo_S32x100x30000_S_d0_1_2 h_S_) main_v2 main_c
  let main_v4 : FVec F S1000x30000 .f32 := Host.absf main_arg1
  let main_cst_0 : FVec F S_ .f32 := constant S_ .f32 0x7F800000#32
  let main_v5 : FVec F S1000x30000 .f32 := broadcastInDim S1000x30000 ![] bcast_S_S1000x30000 main_cst_0
  let main_v6 : IVec S1000x30000 1 := cmpf .olt main_v4 main_v5
  let main_c_1 : IVec S_ 1 := constantI S_ 1 1#1
  let main_v7 : IVec S_ 1 := (fun x v => Host.reduce IntOp.andi x v reducesTo_S1000x30000_S_d0_1 h_S_) main_v6 main_c_1
  let main_v8 : IVec S_ 1 := andi main_v3 main_v7
  let main_v9 : FVec F S1000 .f32 := Host.absf main_arg2
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  let main_v14 : FVec F S104x10000 .f32 := Host.absf main_arg3
  let main_cst_4 : FVec F S_ .f32 := constant S_ .f32 0x7F800000#32
  let main_v15 : FVec F S104x10000 .f32 := broadcastInDim S104x10000 ![] bcast_S_S104x10000 main_cst_4
  let main_v16 : IVec S104x10000 1 := cmpf .olt main_v14 main_v15
  fn_part1 (F := F) main_arg4 main_v13 main_v16
-- ==== Kernel.lean ====
abbrev S32x100x30000 : Shape := ⟨3, ![32, 100, 30000]⟩
abbrev S1000x30000 : Shape := ⟨2, ![1000, 30000]⟩
abbrev S1000 : Shape := ⟨1, ![1000]⟩
abbrev S104x10000 : Shape := ⟨2, ![104, 10000]⟩
abbrev S104 : Shape := ⟨1, ![104]⟩
abbrev S3200x30000 : Shape := ⟨2, ![3200, 30000]⟩
abbrev S_ : Shape := ⟨0, ![]⟩
abbrev S1024x30000 : Shape := ⟨2, ![1024, 30000]⟩
abbrev S1024 : Shape := ⟨1, ![1024]⟩
abbrev S1x1024 : Shape := ⟨2, ![1, 1024]⟩
abbrev S3200x1024 : Shape := ⟨2, ![3200, 1024]⟩
abbrev S64x30000 : Shape := ⟨2, ![64, 30000]⟩
abbrev S512x30000 : Shape := ⟨2, ![512, 30000]⟩
abbrev S1x512 : Shape := ⟨2, ![1, 512]⟩
abbrev S64x512 : Shape := ⟨2, ![64, 512]⟩
abbrev S32x100x1024 : Shape := ⟨3, ![32, 100, 1024]⟩
abbrev S32x100x1000 : Shape := ⟨3, ![32, 100, 1000]⟩
abbrev S32x1000x100 : Shape := ⟨3, ![32, 1000, 100]⟩
abbrev S32x1000x10x10 : Shape := ⟨4, ![32, 1000, 10, 10]⟩
abbrev S32x1000x10 : Shape := ⟨3, ![32, 1000, 10]⟩
abbrev S32x10000 : Shape := ⟨2, ![32, 10000]⟩
abbrev S32 : Shape := ⟨1, ![32]⟩
abbrev S32x1 : Shape := ⟨2, ![32, 1]⟩
abbrev S10000x104 : Shape := ⟨2, ![10000, 104]⟩
abbrev S32x104 : Shape := ⟨2, ![32, 104]⟩
abbrev S1x104 : Shape := ⟨2, ![1, 104]⟩

abbrev nBuf : Space → Nat
  | .hbm => 40
  | .vmem => 7
  | .smem => 0
  | _ => 0

abbrev bufTy : (tb : Table) → Fin (tcTables nBuf tb) → BufTy
  | .hbm, ⟨0, _⟩ => ⟨S32x100x30000, .f32⟩
  | .hbm, ⟨1, _⟩ => ⟨S1000x30000, .f32⟩
  | .hbm, ⟨2, _⟩ => ⟨S1000, .f32⟩
  | .hbm, ⟨3, _⟩ => ⟨S104x10000, .f32⟩
  | .hbm, ⟨4, _⟩ => ⟨S104, .f32⟩
  | .hbm, ⟨5, _⟩ => ⟨S3200x30000, .f32⟩
  | .hbm, ⟨6, _⟩ => ⟨S_, .i32⟩
  | .hbm, ⟨7, _⟩ => ⟨S_, .f32⟩
  | .hbm, ⟨8, _⟩ => ⟨S1024x30000, .f32⟩
  | .hbm, ⟨9, _⟩ => ⟨S1024x30000, .bf16⟩
  | .hbm, ⟨10, _⟩ => ⟨S_, .i32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S3200x1024, .f32⟩
  | .hbm, ⟨15, _⟩ => ⟨S32x100x1024, .f32⟩
  | .hbm, ⟨16, _⟩ => ⟨S32x100x1000, .f32⟩
  | .hbm, ⟨17, _⟩ => ⟨S32x1000x100, .f32⟩
  | .hbm, ⟨18, _⟩ => ⟨S32x1000x10x10, .f32⟩
  | .hbm, ⟨19, _⟩ => ⟨S_, .f32⟩
  | .hbm, ⟨20, _⟩ => ⟨S32x1000x10, .f32⟩
  | .hbm, ⟨21, _⟩ => ⟨S_, .f32⟩
  | .hbm, ⟨22, _⟩ => ⟨S32x1000x10, .f32⟩
  | .hbm, ⟨23, _⟩ => ⟨S32x1000x10, .f32⟩
  | .hbm, ⟨24, _⟩ => ⟨S32x10000, .f32⟩
  | .hbm, ⟨25, _⟩ => ⟨S32x10000, .f32⟩
  | .hbm, ⟨26, _⟩ => ⟨S_, .f32⟩
  | .hbm, ⟨27, _⟩ => ⟨S32, .f32⟩
  | .hbm, ⟨28, _⟩ => ⟨S32x1, .f32⟩
  | .hbm, ⟨29, _⟩ => ⟨S_, .f32⟩
  | .hbm, ⟨30, _⟩ => ⟨S32x1, .f32⟩
  | .hbm, ⟨31, _⟩ => ⟨S32x1, .f32⟩
  | .hbm, ⟨32, _⟩ => ⟨S32x1, .f32⟩
  | .hbm, ⟨33, _⟩ => ⟨S32x10000, .f32⟩
  | .hbm, ⟨34, _⟩ => ⟨S32x10000, .f32⟩
  | .hbm, ⟨35, _⟩ => ⟨S10000x104, .f32⟩
  | .hbm, ⟨36, _⟩ => ⟨S32x104, .f32⟩
  | .hbm, ⟨37, _⟩ => ⟨S1x104, .f32⟩
  | .hbm, ⟨38, _⟩ => ⟨S32x104, .f32⟩
  | .hbm, ⟨39, _⟩ => ⟨S32x104, .f32⟩
  | .local _ .vmem, ⟨0, _⟩ => ⟨S64x30000, .f32⟩
  | .local _ .vmem, ⟨1, _⟩ => ⟨S64x30000, .f32⟩
  | .local _ .vmem, ⟨2, _⟩ => ⟨S512x30000, .bf16⟩
  | .local _ .vmem, ⟨3, _⟩ => ⟨S1x512, .f32⟩
  | .local _ .vmem, ⟨4, _⟩ => ⟨S1x512, .f32⟩
  | .local _ .vmem, ⟨5, _⟩ => ⟨S64x512, .f32⟩
  | .local _ .vmem, ⟨6, _⟩ => ⟨S64x512, .f32⟩
  | _, _ => ⟨S32x100x30000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x30000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x30000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S32x100x30000_S3200x30000 : S32x100x30000.ShapeCasts S3200x30000
  pads_S1000x30000_S1024x30000_0240_000 : S1000x30000.Pads (![0, 0] : Fin 2 → Nat) ![24, 0] ![0, 0] S1024x30000
  h_S_ : 0 < S_.numel
  bitsLt_bf16_f32 : FTy.bits .bf16 < FTy.bits .f32
  pads_S1000_S1024_0240 : S1000.Pads (![0] : Fin 1 → Nat) ![24] ![0] S1024
  shapeCasts_S1024_S1x1024 : S1024.ShapeCasts S1x1024
  inb_S64x30000_S64x30000_0_0 : ∀ a, (![0, 0] : Fin 2 → Nat) a + S64x30000.size a ≤ S64x30000.size a
  h_S64x30000 : 0 < S64x30000.numel
  shapeCasts_S64x30000_S64x30000 : S64x30000.ShapeCasts S64x30000
  inb_S512x30000_S512x30000_0_0 : ∀ a, (![0, 0] : Fin 2 → Nat) a + S512x30000.size a ≤ S512x30000.size a
  h_S512x30000 : 0 < S512x30000.numel
  shapeCasts_S512x30000_S512x30000 : S512x30000.ShapeCasts S512x30000
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  inb_S64x512_S64x512_0_0 : ∀ a, (![0, 0] : Fin 2 → Nat) a + S64x512.size a ≤ S64x512.size a
  h_S64x512 : 0 < S64x512.numel
  shapeCasts_S3200x1024_S32x100x1024 : S3200x1024.ShapeCasts S32x100x1024
  slices_S32x100x1024_S32x100x1000_0_0_0 : S32x100x1024.Slices ![0, 0, 0] S32x100x1000
  transposes_S32x100x1000_S32x1000x100_0_2_1 : S32x100x1000.Transposes [0, 2, 1] S32x1000x100
  shapeCasts_S32x1000x100_S32x1000x10x10 : S32x1000x100.ShapeCasts S32x1000x10x10
  reducesTo_S32x1000x10x10_S32x1000x10_d3 : S32x1000x10x10.ReducesTo [3] S32x1000x10
  bcast_S_S32x1000x10 : S_.BroadcastsInDim S32x1000x10 (![] : Fin 0 → Fin S32x1000x10.rank)
  shapeCasts_S32x1000x10_S32x10000 : S32x1000x10.ShapeCasts S32x10000
  reducesTo_S32x10000_S32_d1 : S32x10000.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x10000_0_1 : S32x1.BroadcastsInDim S32x10000 (![0, 1] : Fin 2 → Fin S32x10000.rank)
  transposes_S104x10000_S10000x104_1_0 : S104x10000.Transposes [1, 0] S10000x104
  bcast_S104_S1x104_1 : S104.BroadcastsInDim S1x104 (![1] : Fin 1 → Fin S1x104.rank)
  bcast_S1x104_S32x104_0_1 : S1x104.BroadcastsInDim S32x104 (![0, 1] : Fin 2 → Fin S32x104.rank)
  dot_S64x30000_S512x30000_S64x512_1_1_0_0_n_n_wf : DotDims.WF S64x30000 S512x30000 S64x512 [1] [1] [0] [0] [] []
  dot_S32x10000_S10000x104_S32x104_1_0_0_1_n_n_wf : DotDims.WF S32x10000 S10000x104 S32x104 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x30000.size a ≤ S3200x30000.size a
  hwx0_0 : ∀ i : grid0.Coords, EltTy.bits .f32 = 32 ∨ (Rect.block (s := S3200x30000) S64x30000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x30000.size a ≤ S1024x30000.size a
  hwx0_1 : ∀ i : grid0.Coords, EltTy.bits .bf16 = 32 ∨ (Rect.block (s := S1024x30000) S512x30000.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1024.size a
  hwx0_2 : ∀ i : grid0.Coords, EltTy.bits .f32 = 32 ∨ (Rect.block (s := S1x1024) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S3200x1024.size a
  hwx0_3 : ∀ i : grid0.Coords, EltTy.bits .f32 = 32 ∨ (Rect.block (s := S3200x1024) S64x512.size (cc0_transform_3 i) (hinb0_3 i)).WholeWords (EltTy.packing .f32)

variable [Facts₀]

def dot_S64x30000_S512x30000_S64x512_1_1_0_0_n_n : DotDims S64x30000 S512x30000 S64x512 where
  lhsContracting := [1]
  rhsContracting := [1]
  lhsNonContracting := [0]
  rhsNonContracting := [0]
  lhsBatch := []
  rhsBatch := []
  wf := dot_S64x30000_S512x30000_S64x512_1_1_0_0_n_n_wf
def dot_S32x10000_S10000x104_S32x104_1_0_0_1_n_n : DotDims S32x10000 S10000x104 S32x104 where
  lhsContracting := [1]
  rhsContracting := [0]
  lhsNonContracting := [0]
  rhsNonContracting := [1]
  lhsBatch := []
  rhsBatch := []
  wf := dot_S32x10000_S10000x104_S32x104_1_0_0_1_n_n_wf

abbrev win0_0 : Pipeline.Window sig grid0 :=
  Pipeline.Window.ofSpec (Memref.whole main_v0) S64x30000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x30000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x100x30000 : Shape := ⟨3, ![32, 100, 30000]⟩
abbrev S1000x30000 : Shape := ⟨2, ![1000, 30000]⟩
abbrev S1000 : Shape := ⟨1, ![1000]⟩
abbrev S104x10000 : Shape := ⟨2, ![104, 10000]⟩
abbrev S104 : Shape := ⟨1, ![104]⟩
abbrev S1000x32x100 : Shape := ⟨3, ![1000, 32, 100]⟩
abbrev S32x1000x100 : Shape := ⟨3, ![32, 1000, 100]⟩
abbrev S1x1000x1 : Shape := ⟨3, ![1, 1000, 1]⟩
abbrev S_ : Shape := ⟨0, ![]⟩
abbrev S32x1000x10x10 : Shape := ⟨4, ![32, 1000, 10, 10]⟩
abbrev S32x1000x10 : Shape := ⟨3, ![32, 1000, 10]⟩
abbrev S32x10000 : Shape := ⟨2, ![32, 10000]⟩
abbrev S32 : Shape := ⟨1, ![32]⟩
abbrev S32x1 : Shape := ⟨2, ![32, 1]⟩
abbrev S10000x104 : Shape := ⟨2, ![10000, 104]⟩
abbrev S32x104 : Shape := ⟨2, ![32, 104]⟩
abbrev S1x104 : Shape := ⟨2, ![1, 104]⟩

abbrev nBuf : Space → Nat
  | .hbm => 35
  | .vmem => 0
  | .smem => 0
  | _ => 0

abbrev bufTy : (tb : Table) → Fin (tcTables nBuf tb) → BufTy
  | .hbm, ⟨0, _⟩ => ⟨S32x100x30000, .f32⟩
  | .hbm, ⟨1, _⟩ => ⟨S1000x30000, .f32⟩
  | .hbm, ⟨2, _⟩ => ⟨S1000, .f32⟩
  | .hbm, ⟨3, _⟩ => ⟨S104x10000, .f32⟩
  | .hbm, ⟨4, _⟩ => ⟨S104, .f32⟩
  | .hbm, ⟨5, _⟩ => ⟨S1000x32x100, .f32⟩
  | .hbm, ⟨6, _⟩ => ⟨S32x1000x100, .f32⟩
  | .hbm, ⟨7, _⟩ => ⟨S1x1000x1, .f32⟩
  | .hbm, ⟨8, _⟩ => ⟨S32x1000x100, .f32⟩
  | .hbm, ⟨9, _⟩ => ⟨S32x1000x100, .f32⟩
  | .hbm, ⟨10, _⟩ => ⟨S_, .f32⟩
  | .hbm, ⟨11, _⟩ => ⟨S32x1000x100, .f32⟩
  | .hbm, ⟨12, _⟩ => ⟨S32x1000x100, .f32⟩
  | .hbm, ⟨13, _⟩ => ⟨S32x1000x10x10, .f32⟩
  | .hbm, ⟨14, _⟩ => ⟨S_, .f32⟩
  | .hbm, ⟨15, _⟩ => ⟨S32x1000x10, .f32⟩
  | .hbm, ⟨16, _⟩ => ⟨S_, .f32⟩
  | .hbm, ⟨17, _⟩ => ⟨S32x1000x10, .f32⟩
  | .hbm, ⟨18, _⟩ => ⟨S32x1000x10, .f32⟩
  | .hbm, ⟨19, _⟩ => ⟨S32x10000, .f32⟩
  | .hbm, ⟨20, _⟩ => ⟨S32x10000, .f32⟩
  | .hbm, ⟨21, _⟩ => ⟨S_, .f32⟩
  | .hbm, ⟨22, _⟩ => ⟨S32, .f32⟩
  | .hbm, ⟨23, _⟩ => ⟨S32x1, .f32⟩
  | .hbm, ⟨24, _⟩ => ⟨S_, .f32⟩
  | .hbm, ⟨25, _⟩ => ⟨S32x1, .f32⟩
  | .hbm, ⟨26, _⟩ => ⟨S32x1, .f32⟩
  | .hbm, ⟨27, _⟩ => ⟨S32x1, .f32⟩
  | .hbm, ⟨28, _⟩ => ⟨S32x10000, .f32⟩
  | .hbm, ⟨29, _⟩ => ⟨S32x10000, .f32⟩
  | .hbm, ⟨30, _⟩ => ⟨S10000x104, .f32⟩
  | .hbm, ⟨31, _⟩ => ⟨S32x104, .f32⟩
  | .hbm, ⟨32, _⟩ => ⟨S1x104, .f32⟩
  | .hbm, ⟨33, _⟩ => ⟨S32x104, .f32⟩
  | .hbm, ⟨34, _⟩ => ⟨S32x104, .f32⟩
  | _, _ => ⟨S32x100x30000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  transposes_S1000x32x100_S32x1000x100_1_0_2 : S1000x32x100.Transposes [1, 0, 2] S32x1000x100
  bcast_S1000_S1x1000x1_1 : S1000.BroadcastsInDim S1x1000x1 (![1] : Fin 1 → Fin S1x1000x1.rank)
  bcast_S1x1000x1_S32x1000x100_0_1_2 : S1x1000x1.BroadcastsInDim S32x1000x100 (![0, 1, 2] : Fin 3 → Fin S32x1000x100.rank)
  bcast_S_S32x1000x100 : S_.BroadcastsInDim S32x1000x100 (![] : Fin 0 → Fin S32x1000x100.rank)
  shapeCasts_S32x1000x100_S32x1000x10x10 : S32x1000x100.ShapeCasts S32x1000x10x10
  reducesTo_S32x1000x10x10_S32x1000x10_d3 : S32x1000x10x10.ReducesTo [3] S32x1000x10
  h_S_ : 0 < S_.numel
  bcast_S_S32x1000x10 : S_.BroadcastsInDim S32x1000x10 (![] : Fin 0 → Fin S32x1000x10.rank)
  shapeCasts_S32x1000x10_S32x10000 : S32x1000x10.ShapeCasts S32x10000
  reducesTo_S32x10000_S32_d1 : S32x10000.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x10000_0_1 : S32x1.BroadcastsInDim S32x10000 (![0, 1] : Fin 2 → Fin S32x10000.rank)
  transposes_S104x10000_S10000x104_1_0 : S104x10000.Transposes [1, 0] S10000x104
  bcast_S104_S1x104_1 : S104.BroadcastsInDim S1x104 (![1] : Fin 1 → Fin S1x104.rank)
  bcast_S1x104_S32x104_0_1 : S1x104.BroadcastsInDim S32x104 (![0, 1] : Fin 2 → Fin S32x104.rank)
  dot_S1000x30000_S32x100x30000_S1000x32x100_1_2_0_01_n_n_wf : DotDims.WF S1000x30000 S32x100x30000 S1000x32x100 [1] [2] [0] [0, 1] [] []
  dot_S32x10000_S10000x104_S32x104_1_0_0_1_n_n_wf : DotDims.WF S32x10000 S10000x104 S32x104 [1] [0] [0] [1] [] []

variable [Facts₀]

def dot_S1000x30000_S32x100x30000_S1000x32x100_1_2_0_01_n_n : DotDims S1000x30000 S32x100x30000 S1000x32x100 where
  lhsContracting := [1]
  rhsContracting := [2]
  lhsNonContracting := [0]
  rhsNonContracting := [0, 1]
  lhsBatch := []
  rhsBatch := []
  wf := dot_S1000x30000_S32x100x30000_S1000x32x100_1_2_0_01_n_n_wf
def dot_S32x10000_S10000x104_S32x104_1_0_0_1_n_n : DotDims S32x10000 S10000x104 S32x104 where
  lhsContracting := [1]
  rhsContracting := [0]
  lhsNonContracting := [0]
  rhsNonContracting := [1]
  lhsBatch := []
  rhsBatch := []
  wf := dot_S32x10000_S10000x104_S32x104_1_0_0_1_n_n_wf

class Facts : Prop extends Facts₀ where

variable [Facts]
-- ==== Proof.Spec.lean ====
/-
  The common value of the two programs before their shared pooling and classifier stages: a position-wise linear map
  followed by a rectifier. For a batch entry `b`, an output channel `o` and a position `l`,

      convRelu x w bias b o l = max (Σ_k x[b, l, k] · w[o, k] + bias[o]) 0,

  the sum over the 30000 input features, on the extended reals. Both programs are shown to hold this value at
  index (b, o, l) of the 32 × 1000 × 100 array they hand to the pooling stage.
-/
import Idealize.ShloMosaic.PureOps.Ideal
import Idealize.ShloMosaic.Lib.ValueIdx

noncomputable section

open scoped BigOperators

namespace Cert.ConvRelu

open Idealize.ShloMosaic Idealize.ShloMosaic.ValueIdx

/-- The rectified linear map at batch entry `b`, channel `o`, position `l`: the inner product of the input's row
    (b, l) with the weight's row `o` over the feature axis, plus the channel's bias, cut off below at zero. -/
def convRelu (x : FVec Ideal ⟨3, ![32, 100, 30000]⟩ .f32) (w : FVec Ideal ⟨2, ![1000, 30000]⟩ .f32)
    (bias : FVec Ideal ⟨1, ![1000]⟩ .f32) (b : Fin 32) (o : Fin 1000) (l : Fin 100) : EReal :=
  max ((∑ k : Fin 30000, x (ix3 b l k) * w (ix2 o k)) + bias (ix1 o)) 0

end Cert.ConvRelu

end
-- ==== Proof.RefMid.lean ====
/-
  The reference program, split where the two programs meet. Its result is a chain of pooling, normalisation and a
  final linear layer (`tail`) applied to the 32 × 1000 × 100 array of rectified projections, and that array, at
  index (b, o, l), is `convRelu` of the arguments: the reference contracts the weight's row `o` with the input's row
  (b, l), writes the channel axis first and transposes it back, and adds the bias broadcast along the batch and
  position axes; on the extended reals the product of two factors does not depend on their order.
-/
import proofs.«130984_j48971217109565_2_alg».proof.Proof.Gen.ReferenceIdeal.Read
import proofs.«130984_j48971217109565_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.ConvRelu

/-- What both programs do with the rectified projections `h`: average each channel over ten windows of ten
    positions, flatten channels and windows into one axis of 10000, divide each row by the square root of one plus
    its sum of squares, multiply by the transposed classifier weights and add the classifier bias. -/
def tail (h : FVec Ideal S32x1000x100 .f32) (fcw : FVec Ideal S104x10000 .f32) (fcb : FVec Ideal S104 .f32) :
    FVec Ideal S32x104 .f32 :=
  addf (Host.dotGeneral (F := Ideal) dot_S32x10000_S10000x104_S32x104_1_0_0_1_n_n none (Host.divf (F := Ideal) (shapeCast _ (Host.divf (F := Ideal) (Host.reduceAdd (F := Ideal) (shapeCast _ h shapeCasts_S32x1000x100_S32x1000x10x10) (constant (F := Ideal) S_ .f32 0x00000000#32) reducesTo_S32x1000x10x10_S32x1000x10_d3 h_S_) (broadcastInDim S32x1000x10 ![] bcast_S_S32x1000x10 (constant (F := Ideal) S_ .f32 0x41200000#32))) shapeCasts_S32x1000x10_S32x10000) (broadcastInDim S32x10000 ![0, 1] bcast_S32x1_S32x10000_0_1 (Host.sqrt (F := Ideal) (addf (broadcastInDim S32x1 ![] bcast_S_S32x1 (constant (F := Ideal) S_ .f32 0x3F800000#32)) (broadcastInDim S32x1 ![0] bcast_S32_S32x1_0 (Host.reduceAdd (F := Ideal) (mulf (shapeCast _ (Host.divf (F := Ideal) (Host.reduceAdd (F := Ideal) (shapeCast _ h shapeCasts_S32x1000x100_S32x1000x10x10) (constant (F := Ideal) S_ .f32 0x00000000#32) reducesTo_S32x1000x10x10_S32x1000x10_d3 h_S_) (broadcastInDim S32x1000x10 ![] bcast_S_S32x1000x10 (constant (F := Ideal) S_ .f32 0x41200000#32))) shapeCasts_S32x1000x10_S32x10000) (shapeCast _ (Host.divf (F := Ideal) (Host.reduceAdd (F := Ideal) (shapeCast _ h shapeCasts_S32x1000x100_S32x1000x10x10) (constant (F := Ideal) S_ .f32 0x00000000#32) reducesTo_S32x1000x10x10_S32x1000x10_d3 h_S_) (broadcastInDim S32x1000x10 ![] bcast_S_S32x1000x10 (constant (F := Ideal) S_ .f32 0x41200000#32))) shapeCasts_S32x1000x10_S32x10000)) (constant (F := Ideal) S_ .f32 0x00000000#32) reducesTo_S32x10000_S32_d1 h_S_)))))) (transpose S10000x104 [1, 0] fcw transposes_S104x10000_S10000x104_1_0)) (broadcastInDim S32x104 ![0, 1] bcast_S1x104_S32x104_0_1 (broadcastInDim S1x104 ![1] bcast_S104_S1x104_1 fcb))

/-- The reference's whole result is that chain applied to its array of rectified projections. -/
theorem result_eq (x0 : FVec Ideal S32x100x30000 .f32) (x1 : FVec Ideal S1000x30000 .f32) (x2 : FVec Ideal S1000 .f32)
    (x3 : FVec Ideal S104x10000 .f32) (x4 : FVec Ideal S104 .f32) :
    val_main_v23 (F := Ideal) x0 x1 x2 x3 x4 = tail (val_main_v5 (F := Ideal) x0 x1 x2) x3 x4 := rfl

/-- The reference's rectified projection at (b, o, l) is `convRelu`: its contraction pairs the weight's row `o` with the
    input's row (b, l) coordinate by coordinate, and the two factors of each term commute. -/
theorem mid_at (x0 : FVec Ideal S32x100x30000 .f32) (x1 : FVec Ideal S1000x30000 .f32) (x2 : FVec Ideal S1000 .f32)
    (b : Fin 32) (o : Fin 1000) (l : Fin 100) :
    val_main_v5 (F := Ideal) x0 x1 x2 (ix3 b o l) = convRelu x0 x1 x2 b o l := by
  have el : ∀ k : Fin 30000, lidx_main_v0 (idx_main_v1 (ix3 b o l)) k = ix2 o k := fun k =>
    funext fun a => match a with | ⟨0, _⟩ => rfl | ⟨1, _⟩ => rfl
  have er : ∀ k : Fin 30000, ridx_main_v0 (idx_main_v1 (ix3 b o l)) k = ix3 b l k := fun k =>
    funext fun a => match a with | ⟨0, _⟩ => rfl | ⟨1, _⟩ => rfl | ⟨2, _⟩ => rfl
  have eb : idx_main_v2 (idx_main_v3 (ix3 b o l)) = ix1 o :=
    funext fun a => match a with | ⟨0, _⟩ => rfl
  rw [val_main_v5_apply, val_main_v4_apply, val_main_v1_apply, val_main_v0_apply, val_main_v3_apply,
    val_main_v2_apply, val_main_call0_v0_apply, val_main_call0_cst_apply, eb]
  unfold convRelu
  show max ((∑ k : Fin 30000, x1 (lidx_main_v0 (idx_main_v1 (ix3 b o l)) k) * x0 (ridx_main_v0 (idx_main_v1 (ix3 b o l)) k)) + x2 (ix1 o))
      (Ideal.ofBits .f32 0x00000000#32) = _
  rw [Ideal.ofBits_zero_f32]
  refine congrArg (fun s => max (s + x2 (ix1 o)) 0) (Finset.sum_congr rfl fun k _ => ?_)
  rw [el k, er k, mul_comm]

/-- So the array as a whole is `convRelu` read through its three coordinates. -/
theorem mid_eq (x0 : FVec Ideal S32x100x30000 .f32) (x1 : FVec Ideal S1000x30000 .f32) (x2 : FVec Ideal S1000 .f32) :
    val_main_v5 (F := Ideal) x0 x1 x2 = fun i => convRelu x0 x1 x2 (i 0) (i 1) (i 2) := by
  funext i
  obtain ⟨b, o, l, rfl⟩ : ∃ (b : Fin 32) (o : Fin 1000) (l : Fin 100), i = ix3 b o l := ⟨i 0, i 1, i 2, eq_ix3 i⟩
  exact mid_at x0 x1 x2 b o l

end Cert.ReferenceIdeal.RefValue

end
-- ==== Proof.Payload.lean ====
/-
  The kernel body's stored value read at one index of its 64 × 512 output block. The body multiplies a 64 × 30000
  block of inputs by the transpose of a 512 × 30000 block of weights, adds a 1 × 512 row of biases to every row and
  cuts the result off below at zero. At block index (p, q) that is

      max (Σ_k a[p, k] · b[q, k] + bias[0, q]) 0

  on the extended reals: the matrix product into a zero accumulator is the plain sum over the contracted axis, the
  change of float format of the left operand is the identity, and the shape casts are between equal shapes.
-/
import proofs.«130984_j48971217109565_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- The dimension numbers of the body's matrix product: both operands contract their second axis. -/
abbrev D := dot_S64x30000_S512x30000_S64x512_1_1_0_0_n_n

theorem lhs_row (i : S64x512.Idx) (q : D.contr.Idx) : (D.lhsIdx i q 0).val = (i 0).val := by
  unfold DotDims.lhsIdx
  rw [dif_neg (show ¬(0 : Fin S64x30000.rank) ∈ D.lhsBatch by decide), dif_pos (show (0 : Fin S64x30000.rank) ∈ D.lhsNonContracting by decide)]
  rfl
theorem lhs_col (i : S64x512.Idx) (q : D.contr.Idx) : (D.lhsIdx i q 1).val = (q ⟨0, by decide⟩).val :=
  D.lhsIdx_val_of_single rfl i q
theorem rhs_row (i : S64x512.Idx) (q : D.contr.Idx) : (D.rhsIdx i q 0).val = (i 1).val := by
  unfold DotDims.rhsIdx
  rw [dif_neg (show ¬(0 : Fin S512x30000.rank) ∈ D.rhsBatch by decide), dif_pos (show (0 : Fin S512x30000.rank) ∈ D.rhsNonContracting by decide)]
  rfl
theorem rhs_col (i : S64x512.Idx) (q : D.contr.Idx) : (D.rhsIdx i q 1).val = (q ⟨0, by decide⟩).val :=
  D.rhsIdx_val_of_single rfl i q

/-- The matrix product into the zero accumulator, at (p, q): the sum over the 30000 contracted coordinates of the
    left operand's row `p` times the right operand's row `q`. -/
theorem matmul_at (a : FVec Ideal S64x30000 .bf16) (b : FVec Ideal S512x30000 .bf16) (p : Fin 64) (q : Fin 512) :
    FloatOps.matmul D none a b (constant S64x512 .f32 0x00000000#32) (ix2 p q)
      = ∑ k : Fin 30000, a (ix2 p k) * b (ix2 q k) := by
  rw [Ideal.matmul_constant_zero_apply, ← Equiv.sum_comp (contrEquiv1 D 30000 rfl rfl).symm]
  refine Finset.sum_congr rfl fun k _ => ?_
  have hk := contrEquiv1_symm_val D 30000 rfl rfl k
  have el : D.lhsIdx (ix2 p q) ((contrEquiv1 D 30000 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 30000 rfl rfl).symm k) = ix2 q k := funext fun a => Fin.ext (by
    match a with
    | ⟨0, _⟩ => exact rhs_row _ _
    | ⟨1, _⟩ => exact (rhs_col _ _).trans hk)
  rw [el, er]

/-- The body's stored value at block index (p, q). -/
theorem pay_at (x0 : Vec Ideal S64x30000 .f32) (x1 : Vec Ideal S512x30000 .bf16) (x2 : Vec Ideal S1x512 .f32)
    (p : Fin 64) (q : Fin 512) :
    k0_pay1 x0 x1 x2 (ix2 p q)
      = max ((∑ k : Fin 30000, x0 (ix2 p k) * x1 (ix2 q k)) + x2 (ix2 (0 : Fin 1) q)) (Ideal.ofBits .f32 0x00000000#32) := by
  unfold k0_pay1
  rw [shapeCast_self, shapeCast_self, shapeCast_self]
  refine (maximumf_apply _ _ _).trans ?_
  refine congrArg (fun s => max s (Ideal.ofBits .f32 0x00000000#32)) ?_
  refine (addf_apply _ _ _).trans ?_
  refine congrArg₂ (· + ·) ?_ ?_
  · exact matmul_at (truncf .bf16 x0 bitsLt_bf16_f32) x1 p q
  · exact broadcastTo_1b_ab_apply x2 broadcasts_S1x512_S64x512 p q

end Cert.KernelIdeal.Block

end
-- ==== Proof.Block.lean ====
/-
  From the kernel's blocks to its whole output array. The grid has 2 × 50 points; at the point with coordinates
  (j, i) the body reads rows 64·i … 64·i + 63 of the flattened input, rows 512·j … 512·j + 511 of the padded weights
  and columns 512·j … 512·j + 511 of the one-row bias, and writes back the 64 × 512 block of the output at block
  position (i, j). Each element written is therefore one function of the three arrays and of its own position in
  the output, the same at every point:

      rowsTimesWeights A0 A1 A2 (r, o) = max (Σ_k A0[r, k] · A1[o, k] + A2[0, o]) 0,

  and since the 50 × 2 blocks tile the 3200 × 1024 output, the array after the run is that function.
-/
import proofs.«130984_j48971217109565_2_alg».proof.Proof.Gen.KernelIdeal.Frame
import proofs.«130984_j48971217109565_2_alg».proof.Proof.Payload

noncomputable section

open scoped BigOperators

namespace Cert.KernelIdeal.Block

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- One element of the output from the three arrays the region reads, at row `r` and channel `o`. -/
def cell (A0 : S3200x30000.Idx → EReal) (A1 : S1024x30000.Idx → EReal) (A2 : S1x1024.Idx → EReal)
    (r : Fin 3200) (o : Fin 1024) : EReal :=
  max ((∑ k : Fin 30000, A0 (ix2 r k) * A1 (ix2 o k)) + A2 (ix2 (0 : Fin 1) o)) (Ideal.ofBits .f32 0x00000000#32)

/-- The whole output array as a function of the three arrays the region reads. -/
def rowsTimesWeights (A0 : S3200x30000.Idx → EReal) (A1 : S1024x30000.Idx → EReal) (A2 : S1x1024.Idx → EReal) :
    S3200x1024.Idx → EReal :=
  fun i => cell A0 A1 A2 ⟨(i 0).val, idx2_lt0 i⟩ ⟨(i 1).val, idx2_lt1 i⟩

/-- The printed index maps related over the grid: the input rows follow the output's row block, the weights and the
    bias follow the output's column block, and every other block coordinate is zero. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 49 ∧ win0_3.index t (1 : Fin 2) ≤ 1 :=
  (by decide +kernel : ∀ t : Fin grid0.N, _)

/-- Every block position of the output is some point's. -/
theorem idx_onto : ∀ (q0 : Fin 50) (q1 : Fin 2), ∃ t : Fin cfg0.N, win0_3.index t = ![q0.val, q1.val] :=
  (by decide +kernel : ∀ (q0 : Fin 50) (q1 : Fin 2), ∃ t : Fin grid0.N, win0_3.index t = ![q0.val, q1.val])

/-- The input window's block at a point, read at a block index, is the flattened input at the block's offset plus
    that index. -/
theorem rows_apply (c : Dev nD) (t : Fin cfg0.N) (x : S64x30000.Idx) (k : S3200x30000.Idx)
    (hk0 : (k 0).val = win0_0.index t (0 : Fin 2) * 64 + (x 0).val)
    (hk1 : (k 1).val = win0_0.index t (1 : Fin 2) * 30000 + (x 1).val) :
    (iblk m c 0 t : Vec Ideal S64x30000 .f32) x = (V m c main_v0 : S3200x30000.Idx → EReal) k := by
  unfold iblk
  rw [View.read_apply]
  show V m c main_v0 _ = V m c main_v0 _
  refine congrArg (V m c main_v0) ?_
  funext a
  apply Fin.ext
  match a with
  | ⟨0, _⟩ => show win0_0.index t (0 : Fin 2) * 64 + 1 * (x 0).val = (k 0).val; omega
  | ⟨1, _⟩ => show win0_0.index t (1 : Fin 2) * 30000 + 1 * (x 1).val = (k 1).val; omega

/-- The weight window's block likewise. -/
theorem weights_apply (c : Dev nD) (t : Fin cfg0.N) (x : S512x30000.Idx) (k : S1024x30000.Idx)
    (hk0 : (k 0).val = win0_1.index t (0 : Fin 2) * 512 + (x 0).val)
    (hk1 : (k 1).val = win0_1.index t (1 : Fin 2) * 30000 + (x 1).val) :
    (iblk m c 1 t : Vec Ideal S512x30000 .bf16) x = (V m c main_v2 : S1024x30000.Idx → EReal) k := by
  unfold iblk
  rw [View.read_apply]
  show V m c main_v2 _ = V m c main_v2 _
  refine congrArg (V m c main_v2) ?_
  funext a
  apply Fin.ext
  match a with
  | ⟨0, _⟩ => show win0_1.index t (0 : Fin 2) * 512 + 1 * (x 0).val = (k 0).val; omega
  | ⟨1, _⟩ => show win0_1.index t (1 : Fin 2) * 30000 + 1 * (x 1).val = (k 1).val; omega

/-- The bias window's block likewise. -/
theorem bias_apply (c : Dev nD) (t : Fin cfg0.N) (x : S1x512.Idx) (k : S1x1024.Idx)
    (hk0 : (k 0).val = win0_2.index t (0 : Fin 2) * 1 + (x 0).val)
    (hk1 : (k 1).val = win0_2.index t (1 : Fin 2) * 512 + (x 1).val) :
    (iblk m c 2 t : Vec Ideal S1x512 .f32) x = (V m c main_v4 : S1x1024.Idx → EReal) k := by
  unfold iblk
  rw [View.read_apply]
  show V m c main_v4 _ = V m c main_v4 _
  refine congrArg (V m c main_v4) ?_
  funext a
  apply Fin.ext
  match a with
  | ⟨0, _⟩ => show win0_2.index t (0 : Fin 2) * 1 + 1 * (x 0).val = (k 0).val; omega
  | ⟨1, _⟩ => show win0_2.index t (1 : Fin 2) * 512 + 1 * (x 1).val = (k 1).val; omega

/-- What a point writes back is its block of `rowsTimesWeights` of the arrays the region reads. -/
theorem flushed_eq (c : Dev nD) (t : Fin cfg0.N) :
    (dats m 0 c).flushed 3 t
      = ((cfg0.win 3).blk t).view.read (Elt Ideal) (rowsTimesWeights (V m c main_v0) (V m c main_v2) (V m c main_v4)) := by
  show (cfg0.win 3).cut (grid0.coords t) ((dats m 0 c).after 3 t) = _
  rw [after0_3]
  unfold out0_3
  rw [View.canon_unit_zero hz]
  simp only [View.ld_unit_zero (S := S64x30000) hz, View.ld_unit_zero (S := S512x30000) hz, View.ld_unit_zero (S := S1x512) hz]
  obtain ⟨e0, e1, e2, e3, e4, e5, e6, e7⟩ := idx_facts t
  funext j
  obtain ⟨p, q, rfl⟩ : ∃ (p : Fin 64) (q : Fin 512), j = ix2 p q := ⟨j 0, j 1, eq_ix2 j⟩
  show k0_pay1 (iblk m c 0 t) (iblk m c 1 t) (iblk m c 2 t) (ix2 p q)
    = rowsTimesWeights (V m c main_v0) (V m c main_v2) (V m c main_v4) (((cfg0.win 3).blk t).view.emb (ix2 p q))
  refine (pay_at (iblk m c 0 t) (iblk m c 1 t) (iblk m c 2 t) p q).trans ?_
  have hr : (((cfg0.win 3).blk t).view.emb (ix2 p q) 0).val = win0_3.index t (0 : Fin 2) * 64 + p.val := by
    show win0_3.index t (0 : Fin 2) * 64 + 1 * p.val = _; omega
  have hc : (((cfg0.win 3).blk t).view.emb (ix2 p q) 1).val = win0_3.index t (1 : Fin 2) * 512 + q.val := by
    show win0_3.index t (1 : Fin 2) * 512 + 1 * q.val = _; omega
  unfold rowsTimesWeights cell
  refine congrArg (fun s => max s (Ideal.ofBits .f32 0x00000000#32))
    (congrArg₂ (· + ·) (Finset.sum_congr rfl fun k _ => congrArg₂ (· * ·) ?_ ?_) ?_)
  · exact rows_apply m c t (ix2 p k) _ (by rw [e0]; exact hr)
      (by show k.val = win0_0.index t (1 : Fin 2) * 30000 + k.val; rw [e1]; omega)
  · exact weights_apply m c t (ix2 q k) _ (by rw [e2]; exact hc)
      (by show k.val = win0_1.index t (1 : Fin 2) * 30000 + k.val; rw [e3]; omega)
  · exact bias_apply m c t (ix2 (0 : Fin 1) q) _
      (by show (0 : Nat) = win0_2.index t (0 : Fin 2) * 1 + 0; rw [e4])
      (by rw [e5]; exact hc)

/-- An index of the output is in a point's block iff each coordinate is in the block's range on its axis. -/
theorem mem_blk (t : Fin cfg0.N) (i : S3200x1024.Idx) :
    i ∈ ((cfg0.win 3).blk t).view.set ↔ ∀ a : Fin 2, win0_3.index t a * S64x512.size a ≤ (i a).val
      ∧ (i a).val < win0_3.index t a * S64x512.size a + S64x512.size a := by
  show i ∈ ((View.whole main_v5).slice (win0_3.rect t)).set ↔ _
  rw [View.set_slice_whole, Rect.mem_set_unit]
  exact Iff.rfl

/-- Every index of the output is in the block of the point whose block position is (row / 64, channel / 512). -/
theorem cover (i : S3200x1024.Idx) :
    ∃ t : Fin cfg0.N, (cfg0.win 3).flush t = true ∧ i ∈ ((cfg0.win 3).blk t).view.set := by
  have hi0 : (i 0).val < 3200 := (i 0).isLt
  have hi1 : (i 1).val < 1024 := (i 1).isLt
  obtain ⟨t, ht⟩ := idx_onto ⟨(i 0).val / 64, by omega⟩ ⟨(i 1).val / 512, by omega⟩
  have q0 : win0_3.index t (0 : Fin 2) = (i 0).val / 64 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 512 ≤ (i 1).val ∧ (i 1).val < win0_3.index t (1 : Fin 2) * 512 + 512; omega

/-- The output array after the run is `rowsTimesWeights` of the arrays the region reads. -/
theorem final (c : Dev nD) :
    (dats m 0 c).arrAt 3 cfg0.N = rowsTimesWeights (V m c main_v0) (V m c main_v2) (V m c main_v4) :=
  (dats m 0 c).arrAt_eq_of_cover 3 _ (fun t _ => flushed_eq m c t) cover

end Cert.KernelIdeal.Block

end
-- ==== Proof.Entry.lean ====
/-
  The three arrays the kernel's region reads, as the host operations before it leave them: the input with its batch
  and position axes flattened into one axis of 3200 rows; the weights with 24 rows of padding appended below their
  1000 rows (and then changed in float format, which is the identity on extended reals); the bias with 24 entries of
  padding appended and a leading unit axis added. Read at an index inside the unpadded part, each is the argument
  array at the corresponding index: row b·100 + l of the flattened input is the input's row (b, l).
-/
import proofs.«130984_j48971217109565_2_alg».proof.Proof.Gen.KernelIdeal.Frame
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The padding value both pads use: the integer zero converted to a float. -/
abbrev padv : FVec Ideal S_ .f32 := sitofp .f32 (constantI S_ 32 0#32)

/-- The flattened input. -/
theorem V_rows (c : Dev nD) :
    (V m c main_v0 : S3200x30000.Idx → EReal)
      = shapeCast S3200x30000 (m ((c : Thread nD τ).loc main_arg0)) shapeCasts_S32x100x30000_S3200x30000 := by
  dsimp only [Gen.V, Gen.V0]
  simp only [hostOps0, hostOps0_1, hostOps0_2, hostOps0_3, hostOps0_4, List.flatten_cons, List.flatten_nil, List.append_nil,
    List.cons_append, List.nil_append]
  after_results
  rfl

/-- The padded weights. -/
theorem V_weights (c : Dev nD) :
    (V m c main_v2 : S1024x30000.Idx → EReal)
      = truncf .bf16 (pad S1024x30000 ![0, 0] ![24, 0] ![0, 0] (m ((c : Thread nD τ).loc main_arg1)) padv
          pads_S1000x30000_S1024x30000_0240_000 h_S_) bitsLt_bf16_f32 := by
  dsimp only [Gen.V, Gen.V0]
  simp only [hostOps0, hostOps0_1, hostOps0_2, hostOps0_3, hostOps0_4, List.flatten_cons, List.flatten_nil, List.append_nil,
    List.cons_append, List.nil_append]
  after_results
  rfl

/-- The padded bias as one row. -/
theorem V_bias (c : Dev nD) :
    (V m c main_v4 : S1x1024.Idx → EReal)
      = shapeCast S1x1024 (pad S1024 ![0] ![24] ![0] (m ((c : Thread nD τ).loc main_arg2)) padv
          pads_S1000_S1024_0240 h_S_) shapeCasts_S1024_S1x1024 := by
  dsimp only [Gen.V, Gen.V0]
  simp only [hostOps0, hostOps0_1, hostOps0_2, hostOps0_3, hostOps0_4, List.flatten_cons, List.flatten_nil, List.append_nil,
    List.cons_append, List.nil_append]
  after_results
  rfl

end Cert.KernelIdeal.Entry

end
-- ==== Proof.KerTail.lean ====
/-
  The kernel program after its region. The host operations that follow the region reshape the 3200 × 1024 output to
  32 × 100 × 1024, cut the channel axis back to its first 1000 entries, exchange the position and channel axes, and
  then apply the same pooling, normalisation and final linear layer as the reference: `tail`. So the program's
  result is `tail` of that re-laid array, and the re-laid array at (b, o, l) is the region's output at row
  b·100 + l, channel o.
-/
import proofs.«130984_j48971217109565_2_alg».proof.Proof.Gen.KernelIdeal.Frame
import proofs.«130984_j48971217109565_2_alg».proof.Proof.RefMid
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Tail

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The region's output re-laid for the pooling stage: rows split into batch entry and position, the padded channels
    dropped, channels before positions. -/
def relaid (A : S3200x1024.Idx → EReal) : FVec Ideal S32x1000x100 .f32 :=
  transpose S32x1000x100 [0, 2, 1]
    (extractStridedSlice S32x100x1000 ![0, 0, 0] (shapeCast S32x100x1024 A shapeCasts_S3200x1024_S32x100x1024)
      slices_S32x100x1024_S32x100x1000_0_0_0)
    transposes_S32x100x1000_S32x1000x100_0_2_1

/-- At (b, o, l) the re-laid array reads the region's output at row b·100 + l and channel o. -/
theorem relaid_at (A : S3200x1024.Idx → EReal) (b : Fin 32) (o : Fin 1000) (l : Fin 100) :
    relaid A (ix3 b o l)
      = A (ix2 (⟨b.val * 100 + l.val, by have := b.isLt; have := l.isLt; omega⟩ : Fin 3200) (⟨o.val, by have := o.isLt; omega⟩ : Fin 1024)) := by
  unfold relaid
  refine (transpose_ix3_021_apply _ transposes_S32x100x1000_S32x1000x100_0_2_1 b o l).trans ?_
  refine (extractStridedSlice_apply _ _ slices_S32x100x1024_S32x100x1000_0_0_0 (ix3 b l o)
    (ix3 b l (⟨o.val, by have := o.isLt; omega⟩ : Fin 1024)) (fun a => ?_)).trans ?_
  · match a with
    | ⟨0, _⟩ => show b.val = 0 + b.val; omega
    | ⟨1, _⟩ => show l.val = 0 + l.val; omega
    | ⟨2, _⟩ => show o.val = 0 + o.val; omega
  · refine shapeCast_apply A shapeCasts_S3200x1024_S32x100x1024 _ _ ?_
    rw [Shape.rowMajor_val_two, Shape.rowMajor_val_three]
    show (b.val * 100 + l.val) * 1024 + o.val = (b.val * 100 + l.val) * 1024 + o.val
    rfl

set_option maxHeartbeats 2000000 in
/-- The program's result buffer after the host operations that follow the region: `tail` of the re-laid output of the
    region and of the two classifier arguments. -/
theorem result_eq (c : Dev nD) :
    Pipeline.afterTail₀ cfgs (dats m) 0 (V0 m) [hostOps1] c main_v26
      = Cert.ReferenceIdeal.RefValue.tail (relaid ((dats m 0 c).arrAt 3 cfg0.N))
          (m ((c : Thread nD τ).loc main_arg3)) (m ((c : Thread nD τ).loc main_arg4)) := by
  have hA : Pipeline.withArrays spec0 c (V0 m c) (fun w => (dats m 0 c).arrAt w cfg0.N) (Proc.devRef .tc main_v5)
      = (dats m 0 c).arrAt 3 cfg0.N := Pipeline.withArrays_arr spec0 launch0.win.arr_inj c _ _ 3
  have h3 : Pipeline.withArrays spec0 c (V0 m c) (fun w => (dats m 0 c).arrAt w cfg0.N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  have h4 : Pipeline.withArrays spec0 c (V0 m c) (fun w => (dats m 0 c).arrAt w cfg0.N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  unfold Pipeline.afterTail₀
  show StableHlo.after hostOps1 _ (Proc.devRef .tc main_v26) = _
  after_results
  rw [hA, h3, h4]
  rfl

end Cert.KernelIdeal.Tail

end
-- ==== Proof.KerMid.lean ====
/-
  The kernel program's array of rectified projections is `convRelu` of the arguments, and its run ends at `tail` of
  it. At (b, o, l) the re-laid output of the region is the region's output at row b·100 + l, channel o < 1000; that
  element is max (Σ_k A0[b·100 + l, k] · A1[o, k] + A2[0, o]) 0 of the arrays the region reads, and at those
  indices the flattened input is the input's row (b, l), the padded weights are the weights' row o (an index inside
  the unpadded part), and the padded bias is the bias at o. The zero the rectifier compares with is the extended
  real 0.
-/
import proofs.«130984_j48971217109565_2_alg».proof.Proof.Block
import proofs.«130984_j48971217109565_2_alg».proof.Proof.Entry
import proofs.«130984_j48971217109565_2_alg».proof.Proof.KerTail
import proofs.«130984_j48971217109565_2_alg».proof.Proof.Spec
import Idealize.ShloMosaic.Lib.KernelVsHost

noncomputable section

open scoped BigOperators

namespace Cert.KernelIdeal.Mid

open Cert.KernelIdeal Cert.KernelIdeal.Gen Idealize.ShloMosaic Idealize.ShloMosaic.TcCoe Idealize.SL.Sem
open Idealize.ShloMosaic.ValueIdx Cert.ConvRelu

variable (m : (ℓ : Loc nD τ sig) → Buf (Elt Ideal) ℓ) (ρ : Dev nD → PrngReg)

/-- Row b·100 + l of the flattened input is the input's row (b, l). -/
theorem rows_at (c : Dev nD) (b : Fin 32) (l : Fin 100) (k : Fin 30000) :
    (V m c main_v0 : S3200x30000.Idx → EReal) (ix2 (⟨b.val * 100 + l.val, by have := b.isLt; have := l.isLt; omega⟩ : Fin 3200) k)
      = (m ((c : Thread nD τ).loc main_arg0) : S32x100x30000.Idx → EReal) (ix3 b l k) := by
  refine (congrFun (Entry.V_rows m c) _).trans ?_
  refine shapeCast_apply _ shapeCasts_S32x100x30000_S3200x30000 _ _ ?_
  rw [Shape.rowMajor_val_three, Shape.rowMajor_val_two]
  show (b.val * 100 + l.val) * 30000 + k.val = (b.val * 100 + l.val) * 30000 + k.val
  rfl

/-- Row o < 1000 of the padded weights is the weights' row o. -/
theorem weights_at (c : Dev nD) (o : Fin 1000) (k : Fin 30000) :
    (V m c main_v2 : S1024x30000.Idx → EReal) (ix2 (⟨o.val, by have := o.isLt; omega⟩ : Fin 1024) k)
      = (m ((c : Thread nD τ).loc main_arg1) : S1000x30000.Idx → EReal) (ix2 o k) := by
  refine (congrFun (Entry.V_weights m c) _).trans ?_
  refine (truncf_apply (φ := .f32) (ψ := .bf16) _ bitsLt_bf16_f32 _).trans ?_
  exact pad_apply_of_inside _ _ _ _ _ pads_S1000x30000_S1024x30000_0240_000 h_S_ _ (ix2 o k) (fun a => by
    match a with
    | ⟨0, _⟩ => show o.val = 0 + o.val * (0 + 1); omega
    | ⟨1, _⟩ => show k.val = 0 + k.val * (0 + 1); omega)

/-- Entry o < 1000 of the padded one-row bias is the bias at o. -/
theorem bias_at (c : Dev nD) (o : Fin 1000) :
    (V m c main_v4 : S1x1024.Idx → EReal) (ix2 (0 : Fin 1) (⟨o.val, by have := o.isLt; omega⟩ : Fin 1024))
      = (m ((c : Thread nD τ).loc main_arg2) : S1000.Idx → EReal) (ix1 o) := by
  refine (congrFun (Entry.V_bias m c) _).trans ?_
  refine (shapeCast_a_1a_apply _ shapeCasts_S1024_S1x1024 (0 : Fin 1) _).trans ?_
  exact pad_apply_of_inside _ _ _ _ _ pads_S1000_S1024_0240 h_S_ _ (ix1 o) (fun a => by
    match a with
    | ⟨0, _⟩ => show o.val = 0 + o.val * (0 + 1); omega)

/-- The kernel's rectified projection at (b, o, l) is `convRelu` of the arguments. -/
theorem mid_at (c : Dev nD) (b : Fin 32) (o : Fin 1000) (l : Fin 100) :
    Tail.relaid ((dats m 0 c).arrAt 3 cfg0.N) (ix3 b o l)
      = convRelu (m ((c : Thread nD τ).loc main_arg0)) (m ((c : Thread nD τ).loc main_arg1))
          (m ((c : Thread nD τ).loc main_arg2)) b o l := by
  rw [Tail.relaid_at, Block.final]
  unfold Block.rowsTimesWeights Block.cell convRelu
  rw [Ideal.ofBits_zero_f32]
  refine congrArg (fun s => max s 0) (congrArg₂ (· + ·) (Finset.sum_congr rfl fun k _ => congrArg₂ (· * ·) ?_ ?_) ?_)
  · exact rows_at m c b l k
  · exact weights_at m c o k
  · exact bias_at m c o

/-- So the array as a whole is `convRelu` read through its three coordinates. -/
theorem mid_eq (c : Dev nD) :
    Tail.relaid ((dats m 0 c).arrAt 3 cfg0.N)
      = fun i => convRelu (m ((c : Thread nD τ).loc main_arg0)) (m ((c : Thread nD τ).loc main_arg1))
          (m ((c : Thread nD τ).loc main_arg2)) (i 0) (i 1) (i 2) := by
  funext i
  obtain ⟨b, o, l, rfl⟩ : ∃ (b : Fin 32) (o : Fin 1000) (l : Fin 100), i = ix3 b o l := ⟨i 0, i 1, i 2, eq_ix3 i⟩
  exact mid_at m c b o l

/-- The kernel program's run, read: every weakly fair execution terminates with the result at `tail` of `convRelu` of
    the arguments and of the two classifier arguments, the arguments unchanged. -/
theorem run : θ_run defs (onTc (τ := τ) (main (F := Ideal))) ⟨m, fun _ => 0, ρ⟩ fun r => ∀ c : Dev nD,
      r.2.mem ((c.tc : Thread nD τ).loc main_v26)
        = Cert.ReferenceIdeal.RefValue.tail
            (fun i => convRelu (m ((c : Thread nD τ).loc main_arg0)) (m ((c : Thread nD τ).loc main_arg1))
              (m ((c : Thread nD τ).loc main_arg2)) (i 0) (i 1) (i 2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(((h c).2 main_v26 (Pipeline.mem_restRefs_of main_v26 (by decide) (by decide))).trans (Tail.result_eq m c)).trans
        (congrArg (fun x => Cert.ReferenceIdeal.RefValue.tail x (m ((c : Thread nD τ).loc main_arg3)) (m ((c : Thread nD τ).loc main_arg4)))
          (mid_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Mid

end
-- ==== Proof.lean ====
/-
  The certificate's five claims for a position-wise linear map with a rectifier, followed by pooling, a
  normalisation and a classifier layer.

  The kernel program computes the rectified projections block by block in its one region — the weights and the bias
  padded from 1000 to 1024 channels before it, the padded channels cut off again after it — and the reference
  computes them with one whole contraction. On the extended reals both arrays hold, at (b, o, l),

      max (Σ_k x[b, l, k] · w[o, k] + bias[o]) 0

  (`Cert.ConvRelu.convRelu`): a matrix product into a zero accumulator is the plain sum over the contracted axis, a
  change of float format is the identity, reading the padded arrays inside their unpadded part reads the arguments,
  and the two factors of each product commute. From that array on the two programs apply the same chain of
  operations with the same constants (`Cert.ReferenceIdeal.RefValue.tail`), which is never opened. Nothing here
  needs the inputs to be finite: only commutativity of the product is used.

  The three frames are the generated frame runs (the reference's is its generated run with the result dropped), and
  the idealisation rewrote no operation, so its claim is trivial.
-/
import proofs.«130984_j48971217109565_2_alg».proof.Defs
import proofs.«130984_j48971217109565_2_alg».proof.Proof.Gen.Kernel
import proofs.«130984_j48971217109565_2_alg».proof.Proof.Gen.Kernel.Skeleton
import proofs.«130984_j48971217109565_2_alg».proof.Proof.Gen.Kernel.Launch
import proofs.«130984_j48971217109565_2_alg».proof.Proof.Gen.Kernel.Points
import proofs.«130984_j48971217109565_2_alg».proof.Proof.Gen.Kernel.Frame
import proofs.«130984_j48971217109565_2_alg».proof.Proof.Gen.KernelIdeal
import proofs.«130984_j48971217109565_2_alg».proof.Proof.Gen.KernelIdeal.Skeleton
import proofs.«130984_j48971217109565_2_alg».proof.Proof.Gen.KernelIdeal.Launch
import proofs.«130984_j48971217109565_2_alg».proof.Proof.Gen.KernelIdeal.Points
import proofs.«130984_j48971217109565_2_alg».proof.Proof.Gen.KernelIdeal.Frame
import proofs.«130984_j48971217109565_2_alg».proof.Proof.Gen.ReferenceIdeal
import proofs.«130984_j48971217109565_2_alg».proof.Proof.Gen.Pre_finite_inputs
import proofs.«130984_j48971217109565_2_alg».proof.Proof.Gen.ReferenceIdeal.Run
import proofs.«130984_j48971217109565_2_alg».proof.Proof.Gen.ReferenceIdeal.Read
import proofs.«130984_j48971217109565_2_alg».proof.Proof.RefMid
import proofs.«130984_j48971217109565_2_alg».proof.Proof.KerMid
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no region: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both runs end at `tail` of `convRelu` of arguments that agree. -/
theorem algebraic : Cert.algebraic_KernelIdeal_ReferenceIdeal := by
  intro m ρ m' ρ' _ hagree
  refine ⟨_, Cert.KernelIdeal.Mid.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v23_eq _ _ _ _ _).trans ?_
  refine (Cert.ReferenceIdeal.RefValue.result_eq _ _ _ _ _).trans ?_
  rw [Cert.ReferenceIdeal.RefValue.mid_eq, (hagree c).1, (hagree c).2.1, (hagree c).2.2.1, (hagree c).2.2.2.1,
    (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
